-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096 : Shape := ⟨2, ![8, 4096]⟩
abbrev S512 : Shape := ⟨1, ![512]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S4x2048x4096 .f32) (main_arg1 : IVec S8x4096 32) (main_arg2 : FVec F S512 .f32) (main_arg3 : IVec S4096x8 32) (main_arg4 : FVec F S512 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4x2048x4096 : Shape := ⟨3, ![4, 2048, 4096]⟩
abbrev S8x4096 : Shape := ⟨2, ![8, 4096]⟩
abbrev S512 : Shape := ⟨1, ![512]⟩
abbrev S4096x8 : Shape := ⟨2, ![4096, 8]⟩
abbrev S16 : Shape := ⟨1, ![16]⟩
abbrev S32768 : Shape := ⟨1, ![32768]⟩
abbrev S_ : Shape := ⟨0, ![]⟩
abbrev S32768x1 : Shape := ⟨2, ![32768, 1]⟩
abbrev S512x64 : Shape := ⟨2, ![512, 64]⟩
abbrev S512x1 : Shape := ⟨2, ![512, 1]⟩
abbrev S1x512x4096 : Shape := ⟨3, ![1, 512, 4096]⟩
abbrev S1x128x4096 : Shape := ⟨3, ![1, 128, 4096]⟩
abbrev S128x4096 : Shape := ⟨2, ![128, 4096]⟩
abbrev S128x8 : Shape := ⟨2, ![128, 8]⟩

abbrev nBuf : Space → Nat
  | .hbm => 43
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S512, .f32⟩
  | .hbm, ⟨3, _⟩ => ⟨S4096x8, .i32⟩
  | .hbm, ⟨4, _⟩ => ⟨S512, .f32⟩
  | .hbm, ⟨5, _⟩ => ⟨S16, .f32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768, .f32⟩
  | .hbm, ⟨16, _⟩ => ⟨S512x64, .f32⟩
  | .hbm, ⟨17, _⟩ => ⟨S512x1, .f32⟩
  | .hbm, ⟨18, _⟩ => ⟨S512x64, .f32⟩
  | .hbm, ⟨19, _⟩ => ⟨S512x64, .f32⟩
  | .hbm, ⟨20, _⟩ => ⟨S8x4096, .f32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .f32⟩
  | .hbm, ⟨31, _⟩ => ⟨S512x64, .f32⟩
  | .hbm, ⟨32, _⟩ => ⟨S512x1, .f32⟩
  | .hbm, ⟨33, _⟩ => ⟨S512x64, .f32⟩
  | .hbm, ⟨34, _⟩ => ⟨S512x64, .f32⟩
  | .hbm, ⟨35, _⟩ => ⟨S4096x8, .f32⟩
  | .hbm, ⟨36, _⟩ => ⟨S4096x8, .f32⟩
  | .hbm, ⟨37, _⟩ => ⟨S4096x8, .bf16⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S4x2048x4096, .f32⟩
  | .local _ .vmem, ⟨0, _⟩ => ⟨S1x512x4096, .f32⟩
  | .local _ .vmem, ⟨1, _⟩ => ⟨S1x512x4096, .f32⟩
  | .local _ .vmem, ⟨2, _⟩ => ⟨S4096x8, .bf16⟩
  | .local _ .vmem, ⟨3, _⟩ => ⟨S8x4096, .f32⟩
  | .local _ .vmem, ⟨4, _⟩ => ⟨S1x512x4096, .f32⟩
  | .local _ .vmem, ⟨5, _⟩ => ⟨S1x512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v5 : BitVec 32 := Scalar.muli arg6 c1_i32_4
  let v6 : BitVec 32 := Scalar.addi c0_i32_5 v5
  let c128_i32 : BitVec 32 := 128#32
  let v7 : BitVec 32 := Scalar.muli v6 c128_i32
  v7
def k0_off1 (k0_t1 : Fin k0_t1_loop.trips) : Fin 3 → Nat :=
  let c0_6 : Index := 0#32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v5 : BitVec 32 := Scalar.muli arg6 c1_i32_4
  let v6 : BitVec 32 := Scalar.addi c0_i32_5 v5
  let c128_i32 : BitVec 32 := 128#32
  let v7 : BitVec 32 := Scalar.muli v6 c128_i32
  let v8 : BitVec 32 := v7
  let v9 : Index := Scalar.indexCast v8
  let c0_7 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S512x64 : S32768.ShapeCasts S512x64
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S512x64_S8x4096 : S512x64.ShapeCasts S8x4096
  shapeCasts_S4096x8_S32768 : S4096x8.ShapeCasts S32768
  shapeCasts_S512x64_S4096x8 : S512x64.ShapeCasts S4096x8
  transposes_S8x4096_S4096x8_1_0 : S8x4096.Transposes [1, 0] S4096x8
  bitsLt_bf16_f32 : FTy.bits .bf16 < FTy.bits .f32
  transposes_S4096x8_S8x4096_1_0 : S4096x8.Transposes [1, 0] S8x4096
  bcast_S_S8x4096 : S_.BroadcastsInDim S8x4096 (![] : Fin 0 → Fin S8x4096.rank)
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  h_S1x128x4096 : 0 < S1x128x4096.numel
  shapeCasts_S1x128x4096_S128x4096 : S1x128x4096.ShapeCasts S128x4096
  shapeCasts_S128x4096_S1x128x4096 : S128x4096.ShapeCasts S1x128x4096
  gather_S16_S32768x1_S32768_n_0_n_n_0_1_1_wf : GatherDims.WF S16 S32768x1 S32768 [] [0] [] [0] [] 1 ![1]
  dot_S128x4096_S4096x8_S128x8_1_0_0_1_n_n_wf : DotDims.WF S128x4096 S4096x8 S128x8 [1] [0] [0] [1] [] []
  dot_S128x8_S8x4096_S128x4096_1_0_0_1_n_n_wf : DotDims.WF S128x8 S8x4096 S128x4096 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x4096.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x2048x4096.size a
  hwx0_0 : ∀ i : grid0.Coords, EltTy.bits .f32 = 32 ∨ (Rect.block (s := S4x2048x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .bf16 = 32 ∨ (Rect.block (s := S4096x8) S4096x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S4x2048x4096.size a
  hwx0_3 : ∀ i : grid0.Coords, EltTy.bits .f32 = 32 ∨ (Rect.block (s := S4x2048x4096) S1x512x4096.size (cc0_transform_3 i) (hinb0_3 i)).WholeWords (EltTy.packing .f32)

variable [Facts₀]

def gather_S16_S32768x1_S32768_n_0_n_n_0_1_1 : GatherDims S16 S32768x1 S32768 where
  offsetDims := []
  collapsedSliceDims := [0]
  operandBatchingDims := []
  startIndicesBatchingDims := []
  startIndexMap := [0]
  indexVectorDim := 1
  sliceSizes := ![1]
  wf := gather_S16_S32768x1_S32768_n_0_n_n_0_1_1_wf
def dot_S128x4096_S4096x8_S128x8_1_0_0_1_n_n : DotDims S128x4096 S4096x8 S128x8 where
  lhsContracting := [1]
  rhsContracting := [0]
  lhsNonContracting := [0]
  rhsNonContracting := [1]
  lhsBatch := []
  rhsBatch := []
  wf := dot_S128x4096_S4096x8_S128x8_1_0_0_1_n_n_wf
def dot_S128x8_S8x4096_S128x4096_1_0_0_1_n_n : DotDims S128x8 S8x4096 S128x4096 where
  lhsContracting := [1]
  rhsContracting := [0]
  lhsNonContracting := [0]
  rhsNonContracting := [1]
  lhsBatch := []
  rhsBatch := []
  wf := dot_S128x8_S8x4096_S128x4096_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8x4096 : Shape := ⟨2, ![8, 4096]⟩
abbrev S512 : Shape := ⟨1, ![512]⟩
abbrev S4096x8 : Shape := ⟨2, ![4096, 8]⟩
abbrev S16 : Shape := ⟨1, ![16]⟩
abbrev S32768 : Shape := ⟨1, ![32768]⟩
abbrev S_ : Shape := ⟨0, ![]⟩
abbrev S32768x1 : Shape := ⟨2, ![32768, 1]⟩
abbrev S512x64 : Shape := ⟨2, ![512, 64]⟩
abbrev S512x1 : Shape := ⟨2, ![512, 1]⟩
abbrev S4x2048x8 : Shape := ⟨3, ![4, 2048, 8]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S512, .f32⟩
  | .hbm, ⟨3, _⟩ => ⟨S4096x8, .i32⟩
  | .hbm, ⟨4, _⟩ => ⟨S512, .f32⟩
  | .hbm, ⟨5, _⟩ => ⟨S16, .f32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768, .f32⟩
  | .hbm, ⟨16, _⟩ => ⟨S512x64, .f32⟩
  | .hbm, ⟨17, _⟩ => ⟨S512x1, .f32⟩
  | .hbm, ⟨18, _⟩ => ⟨S512x64, .f32⟩
  | .hbm, ⟨19, _⟩ => ⟨S512x64, .f32⟩
  | .hbm, ⟨20, _⟩ => ⟨S8x4096, .f32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .f32⟩
  | .hbm, ⟨31, _⟩ => ⟨S512x64, .f32⟩
  | .hbm, ⟨32, _⟩ => ⟨S512x1, .f32⟩
  | .hbm, ⟨33, _⟩ => ⟨S512x64, .f32⟩
  | .hbm, ⟨34, _⟩ => ⟨S512x64, .f32⟩
  | .hbm, ⟨35, _⟩ => ⟨S4096x8, .f32⟩
  | .hbm, ⟨36, _⟩ => ⟨S4x2048x8, .f32⟩
  | .hbm, ⟨37, _⟩ => ⟨S4x2048x4096, .f32⟩
  | .hbm, ⟨38, _⟩ => ⟨S_, .f32⟩
  | .hbm, ⟨39, _⟩ => ⟨S4x2048x4096, .f32⟩
  | .hbm, ⟨40, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S512x64 : S32768.ShapeCasts S512x64
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S512x64_S8x4096 : S512x64.ShapeCasts S8x4096
  shapeCasts_S4096x8_S32768 : S4096x8.ShapeCasts S32768
  shapeCasts_S512x64_S4096x8 : S512x64.ShapeCasts S4096x8
  bcast_S_S4x2048x4096 : S_.BroadcastsInDim S4x2048x4096 (![] : Fin 0 → Fin S4x2048x4096.rank)
  gather_S16_S32768x1_S32768_n_0_n_n_0_1_1_wf : GatherDims.WF S16 S32768x1 S32768 [] [0] [] [0] [] 1 ![1]
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def gather_S16_S32768x1_S32768_n_0_n_n_0_1_1 : GatherDims S16 S32768x1 S32768 where
  offsetDims := []
  collapsedSliceDims := [0]
  operandBatchingDims := []
  startIndicesBatchingDims := []
  startIndexMap := [0]
  indexVectorDim := 1
  sliceSizes := ![1]
  wf := gather_S16_S32768x1_S32768_n_0_n_n_0_1_1_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.KBody.lean ====
/-
  What the kernel's body leaves in its output block, at the exact (extended-real) values.

  The body holds a 512-row block x0 of the input, the whole 4096×8 matrix x1 and the whole 8×4096 matrix x2, and
  walks the block in four trips of 128 rows.  Trip k loads rows 128k … 128k+127, multiplies them by x1 (128×8),
  multiplies the product by x2 (128×4096) and stores the result over the same rows of the output block.  So after
  the four trips the output block holds, at row p and column q,
      ∑_r ( ∑_i x0[p, i] · x1[i, r] ) · x2[r, q] ,
  one function of the block index: every trip's store is the tile of that function its rectangle names, and the
  four rectangles tile the block.
-/
import proofs.«103536_j20564303413746_2_alg».proof.Proof.Gen.KernelIdeal.Frame
import proofs.«103536_j20564303413746_2_alg».proof.Proof.LibRowDot
import Idealize.ShloMosaic.Lib.Pipeline.Value
import Idealize.ShloMosaic.Lib.ValueIdx
import Idealize.ShloMosaic.Lib.Tactic

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx Cert.RowDot

/-- Row p, column q of (x0 · x1) · x2 for a 512-row block x0. -/
def blockAt (x0 : Vec Ideal S1x512x4096 .f32) (x1 : Vec Ideal S4096x8 .bf16) (x2 : Vec Ideal S8x4096 .f32)
    (p : Fin 512) (q : Fin 4096) : EReal :=
  ∑ r : Fin 8, (∑ i : Fin 4096, x0 (ix3 0 p i) * x1 (ix2 i r)) * x2 (ix2 r q)

/-- The same as a function of the block's index (its leading axis has one coordinate). -/
def blockFn (x0 : Vec Ideal S1x512x4096 .f32) (x1 : Vec Ideal S4096x8 .bf16) (x2 : Vec Ideal S8x4096 .f32) :
    Vec Ideal S1x512x4096 .f32 :=
  fun y => blockAt x0 x1 x2 (y 1) (y 2)

theorem hz2 : (![0, 0] : Fin 2 → Nat) = fun _ => 0 := funext fun a => by fin_cases a <;> rfl

/-- Dropping the unit leading axis of a 1×128×4096 value: entry (p, i) is entry (0, p, i). -/
theorem drop_apply (v : Vec Ideal S1x128x4096 .f32) (h : S1x128x4096.ShapeCasts S128x4096) (p : Fin 128) (i : Fin 4096) :
    shapeCast S128x4096 v h (ix2 p i) = v (ix3 0 p i) := by
  refine (shapeCast_dropUnit_apply ![128, 4096] v h (ix2 p i)).trans (congrArg v ?_)
  funext a
  match a with
  | ⟨0, _⟩ => rfl
  | ⟨1, _⟩ => rfl
  | ⟨2, _⟩ => rfl

/-- Adding it back: entry (z, p, q) is entry (p, q). -/
theorem add_apply (v : Vec Ideal S128x4096 .f32) (h : S128x4096.ShapeCasts S1x128x4096) (z : Fin 1) (p : Fin 128) (q : Fin 4096) :
    shapeCast S1x128x4096 v h (ix3 z p q) = v (ix2 p q) := by
  refine (shapeCast_addUnit_apply ![128, 4096] v h (ix3 z p q)).trans (congrArg v ?_)
  funext a
  match a with
  | ⟨0, _⟩ => rfl
  | ⟨1, _⟩ => rfl

/-- The two dimension records of the body are the plain M×K by K×N ones. -/
theorem dot1_plain : dot_S128x4096_S4096x8_S128x8_1_0_0_1_n_n = DotDims.plain 128 4096 8 := rfl
theorem dot2_plain : dot_S128x8_S8x4096_S128x4096_1_0_0_1_n_n = DotDims.plain 128 8 4096 := rfl

/-- One trip's stored value at (z, p, q): row p of the loaded rows through both products, at column q. -/
theorem pay1_apply (v0 : Vec Ideal S4096x8 .bf16) (v2 : Vec Ideal S8x4096 .f32) (v10 : Vec Ideal S1x128x4096 .f32)
    (z : Fin 1) (p : Fin 128) (q : Fin 4096) :
    k0_pay1 (F := Ideal) v0 v2 v10 (ix3 z p q)
      = ∑ r : Fin 8, (∑ i : Fin 4096, v10 (ix3 0 p i) * v0 (ix2 i r)) * v2 (ix2 r q) := by
  unfold k0_pay1
  refine (add_apply _ _ z p q).trans ?_
  rw [dot2_plain, dot1_plain]
  refine (matmul_plain_zero_apply (some .fp32) _ _ (ix2 p q)).trans ?_
  unfold rowDot rowOf
  refine Finset.sum_congr rfl fun r _ => ?_
  refine congrArg₂ (fun a b : EReal => a * b) ?_ (congrFun (shapeCast_self v2 _) _)
  refine (matmul_plain_zero_apply none _ _ (ix2 p r)).trans ?_
  unfold rowDot rowOf
  refine Finset.sum_congr rfl fun i _ => ?_
  exact congrArg₂ (fun a b : EReal => a * b) (drop_apply v10 _ p i) (congrFun (shapeCast_self v0 _) _)

/-- A trip's piece is the tile of the block's function that its rectangle names: rows n … n+127 of the block. -/
theorem piece_val (x0 : Vec Ideal S1x512x4096 .f32) (x1 : Vec Ideal S4096x8 .bf16) (x2 : Vec Ideal S8x4096 .f32)
    (n : Nat) (off : Fin 3 → Nat) (hoff : off = ![0, n, 0])
    (inb : ∀ a, off a + S1x128x4096.size a ≤ S1x512x4096.size a) (x : S1x128x4096.Idx) :
    k0_pay1 (F := Ideal) x1 x2 (View.ld x0 (Rect.unit (s := S1x512x4096) off S1x128x4096.size inb)) x
      = blockFn x0 x1 x2 ((Rect.unit (s := S1x512x4096) off S1x128x4096.size inb).emb x) := by
  subst hoff
  obtain ⟨z, p, q, rfl⟩ : ∃ (z : Fin 1) (p : Fin 128) (q : Fin 4096), x = ix3 z p q := ⟨x 0, x 1, x 2, eq_ix3 x⟩
  rw [pay1_apply]
  unfold blockFn blockAt
  refine Finset.sum_congr rfl fun r _ => ?_
  refine congrArg₂ (fun a b : EReal => a * b) (Finset.sum_congr rfl fun i _ => ?_) (congrArg x2 ?_)
  · refine congrArg₂ (fun a b : EReal => a * b) (congrArg x0 ?_) rfl
    funext a
    apply Fin.ext
    match a with
    | ⟨0, _⟩ => rfl
    | ⟨1, _⟩ => rfl
    | ⟨2, _⟩ => show 0 + 1 * i.val = i.val; omega
  · funext a
    apply Fin.ext
    match a with
    | ⟨0, _⟩ => rfl
    | ⟨1, _⟩ => show q.val = 0 + 1 * q.val; omega

variable {F : FTy → Type} [FloatOps F]

/-- Trip k writes ONE piece: over rows 128k … 128k+127, the stored value of the rows it loaded there. -/
theorem tripL_eq (𝒱 : Variants) (c : Dev nD) (bd : Option 𝒱.V) (i : grid0.Coords) (arg2 : Memref sig .tc .vmem S1x512x4096 .f32) (harg2 : arg2.IsWhole) (arg3 : Memref sig .tc .vmem S4096x8 .bf16) (harg3 : arg3.IsWhole) (arg4 : Memref sig .tc .vmem S8x4096 .f32) (harg4 : arg4.IsWhole) (arg5 : Memref sig .tc .vmem S1x512x4096 .f32) (harg5 : arg5.IsWhole) (v0 : Vec F S4096x8 .bf16) (v2 : Vec F S8x4096 .f32) (X : BufTy.Contents (Elt F) arg2.view.ty) (k : Fin k0_t1_loop.trips) :
    tripL_k0_t1 (F := F) 𝒱 c bd i arg2 harg2 arg3 harg3 arg4 harg4 arg5 harg5 v0 v2 X k
      = [(⟨Rect.unit (s := S1x512x4096) (k0_off1 k) S1x128x4096.size (k0_off1_inb k),
          k0_pay1 v0 v2 (View.readAt (Elt F) arg2.view (Rect.unit (s := S1x512x4096) (k0_off1 k) S1x128x4096.size (k0_off1_inb k)).toLoadRect X)⟩ :
          View.Piece (Elt F) S1x512x4096 .f32)] := by
  unfold tripL_k0_t1 trip_k0_t1
  rfl

/-- Every piece of the trips before trip n is a tile of the block's function. -/
theorem pb_val (𝒱 : Variants) (c : Dev nD) (bd : Option 𝒱.V) (i : grid0.Coords) (arg2 : Memref sig .tc .vmem S1x512x4096 .f32) (harg2 : arg2.IsWhole) (arg3 : Memref sig .tc .vmem S4096x8 .bf16) (harg3 : arg3.IsWhole) (arg4 : Memref sig .tc .vmem S8x4096 .f32) (harg4 : arg4.IsWhole) (arg5 : Memref sig .tc .vmem S1x512x4096 .f32) (harg5 : arg5.IsWhole) (v0 : Vec Ideal S4096x8 .bf16) (v2 : Vec Ideal S8x4096 .f32) (x0 : Vec Ideal S1x512x4096 .f32) :
    ∀ (n : ℕ) (p : View.Piece (Elt Ideal) S1x512x4096 .f32),
      p ∈ pb_k0_t1 (F := Ideal) 𝒱 c bd i arg2 harg2 arg3 harg3 arg4 harg4 arg5 harg5 v0 v2 (harg2.unread x0) n →
      ∀ x : p.1.shape.Idx, p.2 x = blockFn x0 v0 v2 (p.1.emb x)
  | 0, p, hp => absurd hp (by rw [pb_k0_t1.eq_1]; exact List.not_mem_nil)
  | n + 1, p, hp => by
    rw [pb_k0_t1.eq_2] at hp
    unfold pb_k0_t1Step at hp
    split at hp
    · rename_i h
      rcases List.mem_append.mp hp with h1 | h2
      · rw [tripL_eq] at h1
        obtain rfl := List.mem_singleton.mp h1
        intro x
        simp only [View.readAt_eq_ld, harg2.read_unread]
        exact piece_val x0 v0 v2 _ (k0_off1 ⟨n, h⟩) (k0_off1_eq ⟨n, h⟩) _ x
      · exact pb_val 𝒱 c bd i arg2 harg2 arg3 harg3 arg4 harg4 arg5 harg5 v0 v2 x0 n p h2
    · exact pb_val 𝒱 c bd i arg2 harg2 arg3 harg3 arg4 harg4 arg5 harg5 v0 v2 x0 n p hp

/-- So the body leaves the block's function in the output's staging buffer, whatever it held before. -/
theorem out_eq (c : Dev nD) (i : grid0.Coords) (arg2 : Memref sig .tc .vmem S1x512x4096 .f32) (harg2 : arg2.IsWhole) (arg3 : Memref sig .tc .vmem S4096x8 .bf16) (harg3 : arg3.IsWhole) (arg4 : Memref sig .tc .vmem S8x4096 .f32) (harg4 : arg4.IsWhole) (arg5 : Memref sig .tc .vmem S1x512x4096 .f32) (harg5 : arg5.IsWhole)
    (x0 : Vec Ideal S1x512x4096 .f32) (x1 : Vec Ideal S4096x8 .bf16) (x2 : Vec Ideal S8x4096 .f32) :
    out0_A_3 (F := Ideal) c i arg2 harg2 arg3 harg3 arg4 harg4 arg5 harg5 x0 x1 x2 = blockFn x0 x1 x2 := by
  unfold out0_A_3
  rw [View.read_writes_eq_canon _ _ _ (cover0_A_3 c i arg2 harg2 arg3 harg3 arg4 harg4 arg5 harg5 x0 x1 x2)]
  funext y
  refine View.canon_apply_of_pieces (blockFn x0 x1 x2) _ ?_ y (cover0_A_3 c i arg2 harg2 arg3 harg3 arg4 harg4 arg5 harg5 x0 x1 x2 y)
  intro p hp
  unfold kernelRun0_A at hp
  dsimp only at hp
  have e1 : View.readAt (Elt Ideal) arg3.view (Rect.unit (s := S4096x8) ![0, 0] S4096x8.size inb_S4096x8_S4096x8_0_0).toLoadRect (harg3.unread x1) = x1 := by
    rw [View.readAt_eq_ld, harg3.read_unread, View.ld_unit_zero hz2]
  have e2 : View.readAt (Elt Ideal) arg4.view (Rect.unit (s := S8x4096) ![0, 0] S8x4096.size inb_S8x4096_S8x4096_0_0).toLoadRect (harg4.unread x2) = x2 := by
    rw [View.readAt_eq_ld, harg4.read_unread, View.ld_unit_zero hz2]
  rw [e1, e2] at hp
  exact pb_val _ c _ i arg2 harg2 arg3 harg3 arg4 harg4 arg5 harg5 x1 x2 x0 _ p hp

end Cert.KernelIdeal.Body

end
-- ==== Proof.KHost.lean ====
/-
  What the kernel's program hands to its kernel call.

  Before the call the host reads the two weight matrices out of their codes exactly as the reference does
  (a code c reads book[c], a negative code counted from the end; groups of 64 looked-up values are scaled by
  absmax; the flat list is folded back into the matrix's shape), then transposes them: the call's second operand
  is Aᵀ (4096×8, narrowed to bf16, which changes no value here) and its third operand is Bᵀ · 4 (8×4096).
-/
import proofs.«103536_j20564303413746_2_alg».proof.Proof.Gen.KernelIdeal.Frame
import Idealize.ShloMosaic.Lib.StableHlo.Run
import Idealize.ShloMosaic.Lib.ValueLayout

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The 16-entry code book. -/
def book : (⟨S16, .f32⟩ : BufTy).Contents (Elt F) := fun i => FloatOps.ofBits .f32 (lit0 (S16.rowMajor i))

/-- A flat list of codes, a negative one counted from the end of the book. -/
def wrap (codes : (⟨S32768, .i32⟩ : BufTy).Contents (Elt F)) : (⟨S32768, .i32⟩ : BufTy).Contents (Elt F) :=
  select (cmpi .slt codes (broadcastInDim S32768 ![] bcast_S_S32768 (constantI S_ 32 0#32)))
    (addi codes (broadcastInDim S32768 ![] bcast_S_S32768 (constantI S_ 32 16#32))) codes

/-- The book's entry at each code. -/
def lookup (codes : (⟨S32768, .i32⟩ : BufTy).Contents (Elt F)) : (⟨S32768, .f32⟩ : BufTy).Contents (Elt F) :=
  Host.gather gather_S16_S32768x1_S32768_n_0_n_n_0_1_1 (book (F := F))
    (broadcastInDim S32768x1 ![0] bcast_S32768_S32768x1_0 (wrap (F := F) codes))

/-- Group g of 64 looked-up values times absmax[g]. -/
def scaled (flat : (⟨S32768, .f32⟩ : BufTy).Contents (Elt F)) (absmax : (⟨S512, .f32⟩ : BufTy).Contents (Elt F)) :
    (⟨S512x64, .f32⟩ : BufTy).Contents (Elt F) :=
  mulf (shapeCast S512x64 flat shapeCasts_S32768_S512x64)
    (broadcastInDim S512x64 ![0, 1] bcast_S512x1_S512x64_0_1 (broadcastInDim S512x1 ![0] bcast_S512_S512x1_0 absmax))

/-- The down-projection matrix A, 8×4096. -/
def matA (codes : (⟨S8x4096, .i32⟩ : BufTy).Contents (Elt F)) (absmax : (⟨S512, .f32⟩ : BufTy).Contents (Elt F)) :
    (⟨S8x4096, .f32⟩ : BufTy).Contents (Elt F) :=
  shapeCast S8x4096 (scaled (lookup (F := F) (shapeCast S32768 codes shapeCasts_S8x4096_S32768)) absmax) shapeCasts_S512x64_S8x4096

/-- The up-projection matrix B, 4096×8. -/
def matB (codes : (⟨S4096x8, .i32⟩ : BufTy).Contents (Elt F)) (absmax : (⟨S512, .f32⟩ : BufTy).Contents (Elt F)) :
    (⟨S4096x8, .f32⟩ : BufTy).Contents (Elt F) :=
  shapeCast S4096x8 (scaled (lookup (F := F) (shapeCast S32768 codes shapeCasts_S4096x8_S32768)) absmax) shapeCasts_S512x64_S4096x8

/-- The call's second operand: Aᵀ, narrowed to bf16. -/
def opA (A : (⟨S8x4096, .f32⟩ : BufTy).Contents (Elt F)) : (⟨S4096x8, .bf16⟩ : BufTy).Contents (Elt F) :=
  truncf .bf16 (transpose S4096x8 [1, 0] A transposes_S8x4096_S4096x8_1_0) bitsLt_bf16_f32

/-- The call's third operand: Bᵀ · 4. -/
def opB (B : (⟨S4096x8, .f32⟩ : BufTy).Contents (Elt F)) : (⟨S8x4096, .f32⟩ : BufTy).Contents (Elt F) :=
  mulf (transpose S8x4096 [1, 0] B transposes_S4096x8_S8x4096_1_0)
    (broadcastInDim S8x4096 ![] bcast_S_S8x4096 (constant S_ .f32 0x40800000#32))

variable (m : (ℓ : Loc nD τ sig) → Buf (Elt F) ℓ)

/-- When the call is entered its second operand holds Aᵀ of the launch's codes and scales. -/
theorem V_opA (c : Dev nD) :
    V m c main_v27 = opA (matA (m ((c : Thread nD τ).loc main_arg1)) (m ((c : Thread nD τ).loc main_arg2))) := by
  unfold opA matA scaled lookup wrap book
  dsimp only [V, hostOps0]
  after_results_simp
  rfl

/-- … and its third operand Bᵀ · 4. -/
theorem V_opB (c : Dev nD) :
    V m c main_v30 = opB (matB (m ((c : Thread nD τ).loc main_arg3)) (m ((c : Thread nD τ).loc main_arg4))) := by
  unfold opB matB scaled lookup wrap book
  dsimp only [V, hostOps0]
  after_results_simp
  rfl

end Cert.KernelIdeal.HostValue

namespace Cert.KernelIdeal.HostValue

open Cert.KernelIdeal Cert.KernelIdeal.Gen Idealize.ShloMosaic Idealize.ShloMosaic.ValueIdx

/-- Aᵀ at (i, r) is A at (r, i): narrowing to bf16 is the identity on exact values. -/
theorem opA_apply (A : FVec Ideal S8x4096 .f32) (i : Fin 4096) (r : Fin 8) : opA (F := Ideal) A (ix2 i r) = A (ix2 r i) :=
  transpose_ix2_apply A transposes_S8x4096_S4096x8_1_0 i r

/-- Bᵀ · 4 at (r, o) is B at (o, r) times the scale's word. -/
theorem opB_apply (B : FVec Ideal S4096x8 .f32) (r : Fin 8) (o : Fin 4096) :
    opB (F := Ideal) B (ix2 r o) = B (ix2 o r) * Ideal.ofBits .f32 0x40800000#32 :=
  congrArg₂ (fun u v : EReal => u * v) (transpose_ix2_apply B transposes_S4096x8_S8x4096_1_0 r o) rfl

end Cert.KernelIdeal.HostValue

end
-- ==== Proof.Spec.lean ====
/-
  The low-rank adapter as one function of whole arrays, at the exact (extended-real) values.

  For an input x[b, s, i], a down-projection matrix A[r, i] and an up-projection matrix B[o, r] the layer is
      out[b, s, o] = ( ∑_r ( ∑_i x[b, s, i] · A[r, i] ) · B[o, r] ) · 4 .
  A program that folds the scale 4 into the up-projection first computes
      ∑_r ( ∑_i x[b, s, i] · A[r, i] ) · ( B[o, r] · 4 ) .
  The two agree on every extended real: multiplication is associative, and multiplication by a finite
  non-negative constant distributes over any sum (no infinity can meet its opposite after scaling by 4 that
  did not meet it before).
-/
import Idealize.ShloMosaic.Lib.ValueIdx
import Idealize.ShloMosaic.PureOps.Ideal.Laws

noncomputable section

open scoped BigOperators

namespace Cert.QLoRA

open Idealize.ShloMosaic Idealize.ShloMosaic.ValueIdx

/-- The scale as both programs spell it: the f32 word of 4.0. -/
abbrev scale : EReal := Ideal.ofBits .f32 0x40800000#32

/-- The word 0x40800000 denotes the real number 4. -/
theorem scale_eq : scale = ((4 : ℝ) : EReal) := by
  simp [scale, Ideal.ofBits, Ideal.ieee, -EReal.coe_mul]; norm_num

/-- Entry r of the down-projection of row (b, s):  ∑_i x[b, s, i] · A[r, i]. -/
def down (x : (⟨3, ![4, 2048, 4096]⟩ : Shape).Idx → EReal) (A : (⟨2, ![8, 4096]⟩ : Shape).Idx → EReal)
    (b : Fin 4) (s : Fin 2048) (r : Fin 8) : EReal :=
  ∑ i : Fin 4096, x (ix3 b s i) * A (ix2 r i)

/-- The layer at (b, s, o), the scale applied last. -/
def outAt (x : (⟨3, ![4, 2048, 4096]⟩ : Shape).Idx → EReal) (A : (⟨2, ![8, 4096]⟩ : Shape).Idx → EReal)
    (B : (⟨2, ![4096, 8]⟩ : Shape).Idx → EReal) (b : Fin 4) (s : Fin 2048) (o : Fin 4096) : EReal :=
  (∑ r : Fin 8, down x A b s r * B (ix2 o r)) * scale

/-- The layer at (b, s, o), the scale folded into the up-projection. -/
def foldedAt (x : (⟨3, ![4, 2048, 4096]⟩ : Shape).Idx → EReal) (A : (⟨2, ![8, 4096]⟩ : Shape).Idx → EReal)
    (B : (⟨2, ![4096, 8]⟩ : Shape).Idx → EReal) (b : Fin 4) (s : Fin 2048) (o : Fin 4096) : EReal :=
  ∑ r : Fin 8, down x A b s r * (B (ix2 o r) * scale)

/-- The whole result array. -/
def out (x : (⟨3, ![4, 2048, 4096]⟩ : Shape).Idx → EReal) (A : (⟨2, ![8, 4096]⟩ : Shape).Idx → EReal)
    (B : (⟨2, ![4096, 8]⟩ : Shape).Idx → EReal) : (⟨3, ![4, 2048, 4096]⟩ : Shape).Idx → EReal :=
  fun j => outAt x A B (j 0) (j 1) (j 2)

/-- A finite non-negative constant comes out of a sum of extended reals. -/
theorem sum_mul_coe {ι : Type} (s : Finset ι) (f : ι → EReal) (c : ℝ) (hc : 0 ≤ c) :
    ∑ r ∈ s, f r * (c : EReal) = (∑ r ∈ s, f r) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The two arrangements of the scale agree. -/
theorem foldedAt_eq_outAt (x : (⟨3, ![4, 2048, 4096]⟩ : Shape).Idx → EReal) (A : (⟨2, ![8, 4096]⟩ : Shape).Idx → EReal)
    (B : (⟨2, ![4096, 8]⟩ : Shape).Idx → EReal) (b : Fin 4) (s : Fin 2048) (o : Fin 4096) :
    foldedAt x A B b s o = outAt x A B b s o := by
  unfold foldedAt outAt
  rw [scale_eq, ← sum_mul_coe _ _ 4 (by norm_num)]
  exact Finset.sum_congr rfl fun r _ => (mul_assoc _ _ _).symm

end Cert.QLoRA

end
-- ==== Proof.KValue.lean ====
/-
  The kernel's result array as one function of what its kernel call is given.

  The call walks a 4×4 grid; at point (g, h) the body is given rows 512h … 512h+511 of slab g of the first operand X
  and the whole of the other two operands P (4096×8) and Q (8×4096), and its output block is written back over rows
  512h … 512h+511 of slab g of the result.  The body leaves  (rows · P) · Q  in its block, so entry (b, s, o) of
  the result is  ∑_r ( ∑_i X[b, s, i] · P[i, r] ) · Q[r, o] ; the sixteen blocks tile the result array.  With
  P = Aᵀ and Q = Bᵀ · 4 this is the layer with its scale folded into the up-projection, which equals the layer.
-/
import proofs.«103536_j20564303413746_2_alg».proof.Proof.Gen.KernelIdeal.Value
import proofs.«103536_j20564303413746_2_alg».proof.Proof.KBody
import proofs.«103536_j20564303413746_2_alg».proof.Proof.KHost
import proofs.«103536_j20564303413746_2_alg».proof.Proof.Spec
import Idealize.ShloMosaic.Lib.Pipeline.Value
import Idealize.ShloMosaic.Lib.ValueIdx

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Body Cert.KernelIdeal.HostValue

/-- Entry (b, s, o) of (X · P) · Q, the products taken row by row. -/
def kerAt (X : FVec Ideal S4x2048x4096 .f32) (P : FVec Ideal S4096x8 .bf16) (Q : FVec Ideal S8x4096 .f32)
    (b : Fin 4) (s : Fin 2048) (o : Fin 4096) : EReal :=
  ∑ r : Fin 8, (∑ i : Fin 4096, X (ix3 b s i) * P (ix2 i r)) * Q (ix2 r o)

/-- The whole result array. -/
def kerOut (X : FVec Ideal S4x2048x4096 .f32) (P : FVec Ideal S4096x8 .bf16) (Q : FVec Ideal S8x4096 .f32) :
    FVec Ideal S4x2048x4096 .f32 :=
  fun j => kerAt X P Q (j 0) (j 1) (j 2)

/-- With P = Aᵀ and Q = Bᵀ · 4 the result is the layer. -/
theorem kerOut_eq (x : FVec Ideal S4x2048x4096 .f32) (A : FVec Ideal S8x4096 .f32) (B : FVec Ideal S4096x8 .f32) :
    kerOut x (opA (F := Ideal) A) (opB (F := Ideal) B) = Cert.QLoRA.out x A B := by
  funext j
  obtain ⟨b, s, o, rfl⟩ : ∃ (b : Fin 4) (s : Fin 2048) (o : Fin 4096), j = ix3 b s o := ⟨j 0, j 1, j 2, eq_ix3 j⟩
  refine Eq.trans ?_ (Cert.QLoRA.foldedAt_eq_outAt x A B b s o)
  unfold kerOut kerAt Cert.QLoRA.foldedAt Cert.QLoRA.down
  refine Finset.sum_congr rfl fun r _ => ?_
  refine congrArg₂ (fun u v : EReal => u * v) (Finset.sum_congr rfl fun i _ => ?_) (opB_apply B r o)
  exact congrArg₂ (fun u v : EReal => u * v) rfl (opA_apply A i r)

variable (m : (ℓ : Loc nD τ sig) → Buf (Elt Ideal) ℓ) (ρ : Dev nD → PrngReg)

/-- The index maps over the sixteen grid points: the input block moves with the output block, both span the last
    axis whole, and the two matrices are fetched whole. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (slab, row block) is some grid point's. -/
theorem idx_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- What grid point t writes back is block t of the result's function of the three operands as the call finds them. -/
theorem flushed_eq (c : Dev nD) (t : Fin cfg0.N) :
    (dats m 0 c).flushed 3 t
      = ((cfg0.win 3).blk t).view.read (Elt Ideal) (kerOut (V m c main_arg0) (V m c main_v27) (V m c main_v30)) := by
  rw [Cert.KernelIdeal.Value.flushed3_A]
  rw [out_eq c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨e0, e1, e2, e3, e4, e5, e6, e7⟩ := idx_facts t
  funext y
  show blockFn (iblk m c 0 t) (iblk m c 1 t) (iblk m c 2 t) y
    = kerOut (V m c main_arg0) (V m c main_v27) (V m c main_v30) (((cfg0.win 3).blk t).view.emb y)
  unfold blockFn blockAt kerOut kerAt
  have hy0 : (y 0).val < 1 := (y 0).isLt
  refine Finset.sum_congr rfl fun r _ => ?_
  refine congrArg₂ (fun u v : EReal => u * v) (Finset.sum_congr rfl fun i _ => ?_) ?_
  · refine congrArg₂ (fun u v : EReal => u * v) ?_ ?_
    · show V m c main_arg0 (((cfg0.win 0).blk t).view.emb (ix3 0 (y 1) i)) = V m c main_arg0 _
      refine congrArg (V m c main_arg0) ?_
      funext a
      apply Fin.ext
      match a with
      | ⟨0, _⟩ => show win0_0.index t (0 : Fin 3) * 1 + 1 * 0 = win0_3.index t (0 : Fin 3) * 1 + 1 * (y 0).val; omega
      | ⟨1, _⟩ => show win0_0.index t (1 : Fin 3) * 512 + 1 * (y 1).val = win0_3.index t (1 : Fin 3) * 512 + 1 * (y 1).val; omega
      | ⟨2, _⟩ => show win0_0.index t (2 : Fin 3) * 4096 + 1 * i.val = i.val; omega
    · show V m c main_v27 (((cfg0.win 1).blk t).view.emb (ix2 i r)) = V m c main_v27 _
      refine congrArg (V m c main_v27) ?_
      funext a
      apply Fin.ext
      match a with
      | ⟨0, _⟩ => show win0_1.index t (0 : Fin 2) * 4096 + 1 * i.val = i.val; omega
      | ⟨1, _⟩ => show win0_1.index t (1 : Fin 2) * 8 + 1 * r.val = r.val; omega
  · show V m c main_v30 (((cfg0.win 2).blk t).view.emb (ix2 r (y 2))) = V m c main_v30 _
    refine congrArg (V m c main_v30) ?_
    funext a
    apply Fin.ext
    match a with
    | ⟨0, _⟩ => show win0_2.index t (0 : Fin 2) * 8 + 1 * r.val = r.val; omega
    | ⟨1, _⟩ => show win0_2.index t (1 : Fin 2) * 4096 + 1 * (y 2).val = win0_3.index t (2 : Fin 3) * 4096 + 1 * (y 2).val; omega

/-- An index of the result is in point t's block iff each coordinate is in the block's range on its axis. -/
theorem mem_blk (t : Fin cfg0.N) (i : S4x2048x4096.Idx) :
    i ∈ ((cfg0.win 3).blk t).view.set ↔ ∀ a : Fin 3, win0_3.index t a * S1x512x4096.size a ≤ (i a).val ∧ (i a).val < win0_3.index t a * S1x512x4096.size a + S1x512x4096.size a := by
  show i ∈ ((View.whole main_v31).slice (win0_3.rect t)).set ↔ _
  rw [View.set_slice_whole, Rect.mem_set_unit]
  exact Iff.rfl

/-- The sixteen blocks cover the result: entry (b, s, o) lies in the block of slab b, row block s / 512. -/
theorem cover (i : S4x2048x4096.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 4096 := (i 2).isLt
  obtain ⟨t, ht⟩ := idx_onto ⟨(i 0).val, h0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 4096 ≤ (i 2).val ∧ (i 2).val < win0_3.index t (2 : Fin 3) * 4096 + 4096; omega

/-- So after the run the result array is that function of the three operands. -/
theorem final (c : Dev nD) :
    (dats m 0 c).arrAt 3 cfg0.N = kerOut (V m c main_arg0) (V m c main_v27) (V m c main_v30) :=
  (dats m 0 c).arrAt_eq_of_cover 3 (kerOut (V m c main_arg0) (V m c main_v27) (V m c main_v30))
    (fun t _ => flushed_eq m c t) cover

/-- The kernel's run: the result array ends at the layer of the launch's arguments, the arguments unchanged. -/
theorem run : θ_run defs (onTc (τ := τ) (main (F := Ideal))) ⟨m, fun _ => 0, ρ⟩ fun r => ∀ c : Dev nD,
      r.2.mem ((c : Thread nD τ).loc main_v31)
        = Cert.QLoRA.out (m ((c : Thread nD τ).loc main_arg0))
            (matA (F := Ideal) (m ((c : Thread nD τ).loc main_arg1)) (m ((c : Thread nD τ).loc main_arg2)))
            (matB (F := Ideal) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [V_main_arg0 m c, V_opA m c, V_opB m c]
      exact kerOut_eq _ _ _)), (h c).2⟩)
    (Cert.KernelIdeal.Value.run_blocks m ρ)

end Cert.KernelIdeal.ArrayValue

end
-- ==== Proof.RefDefs.lean ====
/-
  The reference program's result as one term of its five arguments.

  Each of the two weight matrices is stored as 4-bit codes into a 16-entry code book, 64 consecutive entries
  sharing one scale: a code c reads book[c] (a negative code counts from the end of the book), the flat list of
  looked-up values is cut into 512 groups of 64, group g is multiplied by absmax[g], and the list is folded back
  into the matrix's shape.  The result is  ((x · Aᵀ) · Bᵀ) · 4  with the two products contracting the last axes.
-/
import proofs.«103536_j20564303413746_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The 16-entry code book. -/
def book : (⟨S16, .f32⟩ : BufTy).Contents (Elt F) := fun i => FloatOps.ofBits .f32 (lit0 (S16.rowMajor i))

/-- A flat list of codes, a negative one counted from the end of the book. -/
def wrap (codes : (⟨S32768, .i32⟩ : BufTy).Contents (Elt F)) : (⟨S32768, .i32⟩ : BufTy).Contents (Elt F) :=
  select (cmpi .slt codes (broadcastInDim S32768 ![] bcast_S_S32768 (constantI S_ 32 0#32)))
    (addi codes (broadcastInDim S32768 ![] bcast_S_S32768 (constantI S_ 32 16#32))) codes

/-- The book's entry at each code. -/
def lookup (codes : (⟨S32768, .i32⟩ : BufTy).Contents (Elt F)) : (⟨S32768, .f32⟩ : BufTy).Contents (Elt F) :=
  Host.gather gather_S16_S32768x1_S32768_n_0_n_n_0_1_1 (book (F := F))
    (broadcastInDim S32768x1 ![0] bcast_S32768_S32768x1_0 (wrap (F := F) codes))

/-- Group g of 64 looked-up values times absmax[g]. -/
def scaled (flat : (⟨S32768, .f32⟩ : BufTy).Contents (Elt F)) (absmax : (⟨S512, .f32⟩ : BufTy).Contents (Elt F)) :
    (⟨S512x64, .f32⟩ : BufTy).Contents (Elt F) :=
  mulf (shapeCast S512x64 flat shapeCasts_S32768_S512x64)
    (broadcastInDim S512x64 ![0, 1] bcast_S512x1_S512x64_0_1 (broadcastInDim S512x1 ![0] bcast_S512_S512x1_0 absmax))

/-- The down-projection matrix A, 8×4096. -/
def matA (codes : (⟨S8x4096, .i32⟩ : BufTy).Contents (Elt F)) (absmax : (⟨S512, .f32⟩ : BufTy).Contents (Elt F)) :
    (⟨S8x4096, .f32⟩ : BufTy).Contents (Elt F) :=
  shapeCast S8x4096 (scaled (lookup (F := F) (shapeCast S32768 codes shapeCasts_S8x4096_S32768)) absmax) shapeCasts_S512x64_S8x4096

/-- The up-projection matrix B, 4096×8. -/
def matB (codes : (⟨S4096x8, .i32⟩ : BufTy).Contents (Elt F)) (absmax : (⟨S512, .f32⟩ : BufTy).Contents (Elt F)) :
    (⟨S4096x8, .f32⟩ : BufTy).Contents (Elt F) :=
  shapeCast S4096x8 (scaled (lookup (F := F) (shapeCast S32768 codes shapeCasts_S4096x8_S32768)) absmax) shapeCasts_S512x64_S4096x8

/-- The two products and the scale, for any two matrices. -/
def layer (x : (⟨S4x2048x4096, .f32⟩ : BufTy).Contents (Elt F)) (A : (⟨S8x4096, .f32⟩ : BufTy).Contents (Elt F))
    (B : (⟨S4096x8, .f32⟩ : BufTy).Contents (Elt F)) : (⟨S4x2048x4096, .f32⟩ : BufTy).Contents (Elt F) :=
  mulf (Host.dotGeneral dot_S4x2048x8_S4096x8_S4x2048x4096_2_1_01_0_n_n none
      (Host.dotGeneral dot_S4x2048x4096_S8x4096_S4x2048x8_2_1_01_0_n_n none x A) B)
    (broadcastInDim S4x2048x4096 ![] bcast_S_S4x2048x4096 (constant S_ .f32 0x40800000#32))

end Cert.ReferenceIdeal.RefValue

end
-- ==== Proof.RefRun.lean ====
/-
  The reference program's run: its 36 host operations in order, and that every execution ends with the result
  buffer at the layer's term of the five arguments (the two matrices read out of their codes, the two products, the
  scale), the arguments unchanged.
-/
import proofs.«103536_j20564303413746_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 36 operations, in order. -/
abbrev ops : List (HloOp τ sig (Elt F)) :=
  [
    nullary main_cst (fun i => FloatOps.ofBits .f32 (lit0 (S16.rowMajor i))),
    reshape main_arg1 main_v0 rfl shapeCasts_S8x4096_S32768,
    nullary main_c (constantI S_ 32 0#32),
    unary main_c main_v1 (broadcastInDim S32768 ![] bcast_S_S32768 : (⟨S_, .i32⟩ : BufTy).Contents (Elt F) → (⟨S32768, .i32⟩ : BufTy).Contents (Elt F)),
    binary main_v0 main_v1 main_v2 (cmpi .slt : (⟨S32768, .i32⟩ : BufTy).Contents (Elt F) → (⟨S32768, .i32⟩ : BufTy).Contents (Elt F) → (⟨S32768, .i1⟩ : BufTy).Contents (Elt F)),
    nullary main_c_0 (constantI S_ 32 16#32),
    unary main_c_0 main_v3 (broadcastInDim S32768 ![] bcast_S_S32768 : (⟨S_, .i32⟩ : BufTy).Contents (Elt F) → (⟨S32768, .i32⟩ : BufTy).Contents (Elt F)),
    binary main_v0 main_v3 main_v4 (addi : (⟨S32768, .i32⟩ : BufTy).Contents (Elt F) → (⟨S32768, .i32⟩ : BufTy).Contents (Elt F) → (⟨S32768, .i32⟩ : BufTy).Contents (Elt F)),
    ternary main_v2 main_v4 main_v0 main_v5 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v5 main_v6 (broadcastInDim S32768x1 ![0] bcast_S32768_S32768x1_0 : (⟨S32768, .i32⟩ : BufTy).Contents (Elt F) → (⟨S32768x1, .i32⟩ : BufTy).Contents (Elt F)),
    binary main_cst main_v6 main_v7 ((fun x i => Host.gather gather_S16_S32768x1_S32768_n_0_n_n_0_1_1 x i) : (⟨S16, .f32⟩ : BufTy).Contents (Elt F) → (⟨S32768x1, .i32⟩ : BufTy).Contents (Elt F) → (⟨S32768, .f32⟩ : BufTy).Contents (Elt F)),
    reshape main_v7 main_v8 rfl shapeCasts_S32768_S512x64,
    unary main_arg2 main_v9 (broadcastInDim S512x1 ![0] bcast_S512_S512x1_0 : (⟨S512, .f32⟩ : BufTy).Contents (Elt F) → (⟨S512x1, .f32⟩ : BufTy).Contents (Elt F)),
    unary main_v9 main_v10 (broadcastInDim S512x64 ![0, 1] bcast_S512x1_S512x64_0_1 : (⟨S512x1, .f32⟩ : BufTy).Contents (Elt F) → (⟨S512x64, .f32⟩ : BufTy).Contents (Elt F)),
    binary main_v8 main_v10 main_v11 (mulf : (⟨S512x64, .f32⟩ : BufTy).Contents (Elt F) → (⟨S512x64, .f32⟩ : BufTy).Contents (Elt F) → (⟨S512x64, .f32⟩ : BufTy).Contents (Elt F)),
    reshape main_v11 main_v12 rfl shapeCasts_S512x64_S8x4096,
    reshape main_arg3 main_v13 rfl shapeCasts_S4096x8_S32768,
    nullary main_c_1 (constantI S_ 32 0#32),
    unary main_c_1 main_v14 (broadcastInDim S32768 ![] bcast_S_S32768 : (⟨S_, .i32⟩ : BufTy).Contents (Elt F) → (⟨S32768, .i32⟩ : BufTy).Contents (Elt F)),
    binary main_v13 main_v14 main_v15 (cmpi .slt : (⟨S32768, .i32⟩ : BufTy).Contents (Elt F) → (⟨S32768, .i32⟩ : BufTy).Contents (Elt F) → (⟨S32768, .i1⟩ : BufTy).Contents (Elt F)),
    nullary main_c_2 (constantI S_ 32 16#32),
    unary main_c_2 main_v16 (broadcastInDim S32768 ![] bcast_S_S32768 : (⟨S_, .i32⟩ : BufTy).Contents (Elt F) → (⟨S32768, .i32⟩ : BufTy).Contents (Elt F)),
    binary main_v13 main_v16 main_v17 (addi : (⟨S32768, .i32⟩ : BufTy).Contents (Elt F) → (⟨S32768, .i32⟩ : BufTy).Contents (Elt F) → (⟨S32768, .i32⟩ : BufTy).Contents (Elt F)),
    ternary main_v15 main_v17 main_v13 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v18 main_v19 (broadcastInDim S32768x1 ![0] bcast_S32768_S32768x1_0 : (⟨S32768, .i32⟩ : BufTy).Contents (Elt F) → (⟨S32768x1, .i32⟩ : BufTy).Contents (Elt F)),
    binary main_cst main_v19 main_v20 ((fun x i => Host.gather gather_S16_S32768x1_S32768_n_0_n_n_0_1_1 x i) : (⟨S16, .f32⟩ : BufTy).Contents (Elt F) → (⟨S32768x1, .i32⟩ : BufTy).Contents (Elt F) → (⟨S32768, .f32⟩ : BufTy).Contents (Elt F)),
    reshape main_v20 main_v21 rfl shapeCasts_S32768_S512x64,
    unary main_arg4 main_v22 (broadcastInDim S512x1 ![0] bcast_S512_S512x1_0 : (⟨S512, .f32⟩ : BufTy).Contents (Elt F) → (⟨S512x1, .f32⟩ : BufTy).Contents (Elt F)),
    unary main_v22 main_v23 (broadcastInDim S512x64 ![0, 1] bcast_S512x1_S512x64_0_1 : (⟨S512x1, .f32⟩ : BufTy).Contents (Elt F) → (⟨S512x64, .f32⟩ : BufTy).Contents (Elt F)),
    binary main_v21 main_v23 main_v24 (mulf : (⟨S512x64, .f32⟩ : BufTy).Contents (Elt F) → (⟨S512x64, .f32⟩ : BufTy).Contents (Elt F) → (⟨S512x64, .f32⟩ : BufTy).Contents (Elt F)),
    reshape main_v24 main_v25 rfl shapeCasts_S512x64_S4096x8,
    binary main_arg0 main_v12 main_v26 ((fun l r => Host.dotGeneral dot_S4x2048x4096_S8x4096_S4x2048x8_2_1_01_0_n_n none l r) : (⟨S4x2048x4096, .f32⟩ : BufTy).Contents (Elt F) → (⟨S8x4096, .f32⟩ : BufTy).Contents (Elt F) → (⟨S4x2048x8, .f32⟩ : BufTy).Contents (Elt F)),
    binary main_v26 main_v25 main_v27 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    nullary main_cst_3 (constant S_ .f32 0x40800000#32),
    unary main_cst_3 main_v28 (broadcastInDim S4x2048x4096 ![] bcast_S_S4x2048x4096 : (⟨S_, .f32⟩ : BufTy).Contents (Elt F) → (⟨S4x2048x4096, .f32⟩ : BufTy).Contents (Elt F)),
    binary main_v27 main_v28 main_v29 (mulf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., binary_bufs_sub .., nullary_bufs_sub .., unary_bufs_sub .., binary_bufs_sub ..⟩

/-- Every weakly fair execution terminates with the result at the layer's term of the arguments, and the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = layer (m ((c.tc : Thread nD τ).loc main_arg0))
            (matA (m ((c.tc : Thread nD τ).loc main_arg1)) (m ((c.tc : Thread nD τ).loc main_arg2)))
            (matB (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (by
        unfold layer matA matB scaled lookup wrap book
        after_results_simp
        rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefValue

end
-- ==== Proof.RefValue.lean ====
/-
  The reference's term read one entry at a time: the first product at (b, s, r) is ∑_i x[b, s, i] · A[r, i], the
  second at (b, s, o) is ∑_r (first product)[b, s, r] · B[o, r], and the last operation multiplies by 4.  Both
  products contract the last axis of each operand, so the contraction's index set is one axis.
-/
import proofs.«103536_j20564303413746_2_alg».proof.Proof.RefDefs
import proofs.«103536_j20564303413746_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The first product at (b, s, r):  ∑_i x[b, s, i] · A[r, i]. -/
theorem dot1_apply (x : FVec Ideal S4x2048x4096 .f32) (A : FVec Ideal S8x4096 .f32) (b : Fin 4) (s : Fin 2048) (r : Fin 8) :
    Host.dotGeneral dot_S4x2048x4096_S8x4096_S4x2048x8_2_1_01_0_n_n none x A (ix3 b s r) = Cert.QLoRA.down x A b s r := by
  refine (Ideal.dotGeneral_apply dot_S4x2048x4096_S8x4096_S4x2048x8_2_1_01_0_n_n none _ x A (ix3 b s r)).trans ?_
  unfold Cert.QLoRA.down
  rw [← Equiv.sum_comp (contrEquiv1 dot_S4x2048x4096_S8x4096_S4x2048x8_2_1_01_0_n_n 4096 rfl rfl).symm]
  refine Finset.sum_congr rfl fun k _ => ?_
  have hk := contrEquiv1_symm_val dot_S4x2048x4096_S8x4096_S4x2048x8_2_1_01_0_n_n 4096 rfl rfl k
  refine congrArg₂ (fun u v : EReal => u * v) (congrArg x ?_) (congrArg A ?_)
  · funext a
    apply Fin.ext
    match a with
    | ⟨0, _⟩ => rfl
    | ⟨1, _⟩ => rfl
    | ⟨2, _⟩ => exact (DotDims.lhsIdx_val_of_single dot_S4x2048x4096_S8x4096_S4x2048x8_2_1_01_0_n_n rfl _ _).trans hk
  · funext a
    apply Fin.ext
    match a with
    | ⟨0, _⟩ => rfl
    | ⟨1, _⟩ => exact (DotDims.rhsIdx_val_of_single dot_S4x2048x4096_S8x4096_S4x2048x8_2_1_01_0_n_n rfl _ _).trans hk

/-- The second product at (b, s, o):  ∑_r y[b, s, r] · B[o, r]. -/
theorem dot2_apply (y : FVec Ideal S4x2048x8 .f32) (B : FVec Ideal S4096x8 .f32) (b : Fin 4) (s : Fin 2048) (o : Fin 4096) :
    Host.dotGeneral dot_S4x2048x8_S4096x8_S4x2048x4096_2_1_01_0_n_n none y B (ix3 b s o)
      = ∑ r : Fin 8, y (ix3 b s r) * B (ix2 o r) := by
  refine (Ideal.dotGeneral_apply dot_S4x2048x8_S4096x8_S4x2048x4096_2_1_01_0_n_n none _ y B (ix3 b s o)).trans ?_
  rw [← Equiv.sum_comp (contrEquiv1 dot_S4x2048x8_S4096x8_S4x2048x4096_2_1_01_0_n_n 8 rfl rfl).symm]
  refine Finset.sum_congr rfl fun k _ => ?_
  have hk := contrEquiv1_symm_val dot_S4x2048x8_S4096x8_S4x2048x4096_2_1_01_0_n_n 8 rfl rfl k
  refine congrArg₂ (fun u v : EReal => u * v) (congrArg y ?_) (congrArg B ?_)
  · funext a
    apply Fin.ext
    match a with
    | ⟨0, _⟩ => rfl
    | ⟨1, _⟩ => rfl
    | ⟨2, _⟩ => exact (DotDims.lhsIdx_val_of_single dot_S4x2048x8_S4096x8_S4x2048x4096_2_1_01_0_n_n rfl _ _).trans hk
  · funext a
    apply Fin.ext
    match a with
    | ⟨0, _⟩ => rfl
    | ⟨1, _⟩ => exact (DotDims.rhsIdx_val_of_single dot_S4x2048x8_S4096x8_S4x2048x4096_2_1_01_0_n_n rfl _ _).trans hk

/-- The reference's term is the layer's function of x, A and B. -/
theorem layer_eq (x : FVec Ideal S4x2048x4096 .f32) (A : FVec Ideal S8x4096 .f32) (B : FVec Ideal S4096x8 .f32) :
    layer (F := Ideal) x A B = Cert.QLoRA.out x A B := by
  funext j
  obtain ⟨b, s, o, rfl⟩ : ∃ (b : Fin 4) (s : Fin 2048) (o : Fin 4096), j = ix3 b s o := ⟨j 0, j 1, j 2, eq_ix3 j⟩
  unfold layer Cert.QLoRA.out Cert.QLoRA.outAt
  refine congrArg₂ (fun u v : EReal => u * v) ?_ rfl
  refine (dot2_apply _ B b s o).trans ?_
  exact Finset.sum_congr rfl fun r _ => congrArg₂ (fun u v : EReal => u * v) (dot1_apply x A b s r) rfl

end Cert.ReferenceIdeal.RefValue

end
-- ==== Proof.Bridge.lean ====
/-
  The two programs read their weight matrices out of the codes by the same operations on the same code book, so for
  equal codes and scales they hold equal matrices: the two terms are one, spelt once in each program's vocabulary.
-/
import proofs.«103536_j20564303413746_2_alg».proof.Proof.KHost
import proofs.«103536_j20564303413746_2_alg».proof.Proof.RefDefs

noncomputable section

namespace Cert.Bridge

open Idealize.ShloMosaic

/-- The two programs' code books are the same sixteen words. -/
theorem lit0_eq : Cert.KernelIdeal.lit0 = Cert.ReferenceIdeal.lit0 := funext fun i => by fin_cases i <;> rfl

/-- The down-projection matrix, as the kernel's host code and as the reference read it. -/
theorem matA_eq (codes : (⟨Cert.KernelIdeal.S8x4096, .i32⟩ : BufTy).Contents (Elt Ideal))
    (absmax : (⟨Cert.KernelIdeal.S512, .f32⟩ : BufTy).Contents (Elt Ideal)) :
    Cert.KernelIdeal.HostValue.matA (F := Ideal) codes absmax = Cert.ReferenceIdeal.RefValue.matA (F := Ideal) codes absmax := by
  unfold Cert.KernelIdeal.HostValue.matA Cert.ReferenceIdeal.RefValue.matA
    Cert.KernelIdeal.HostValue.scaled Cert.ReferenceIdeal.RefValue.scaled
    Cert.KernelIdeal.HostValue.lookup Cert.ReferenceIdeal.RefValue.lookup
    Cert.KernelIdeal.HostValue.wrap Cert.ReferenceIdeal.RefValue.wrap
    Cert.KernelIdeal.HostValue.book Cert.ReferenceIdeal.RefValue.book
  rw [lit0_eq]
  rfl

/-- The up-projection matrix likewise. -/
theorem matB_eq (codes : (⟨Cert.KernelIdeal.S4096x8, .i32⟩ : BufTy).Contents (Elt Ideal))
    (absmax : (⟨Cert.KernelIdeal.S512, .f32⟩ : BufTy).Contents (Elt Ideal)) :
    Cert.KernelIdeal.HostValue.matB (F := Ideal) codes absmax = Cert.ReferenceIdeal.RefValue.matB (F := Ideal) codes absmax := by
  unfold Cert.KernelIdeal.HostValue.matB Cert.ReferenceIdeal.RefValue.matB
    Cert.KernelIdeal.HostValue.scaled Cert.ReferenceIdeal.RefValue.scaled
    Cert.KernelIdeal.HostValue.lookup Cert.ReferenceIdeal.RefValue.lookup
    Cert.KernelIdeal.HostValue.wrap Cert.ReferenceIdeal.RefValue.wrap
    Cert.KernelIdeal.HostValue.book Cert.ReferenceIdeal.RefValue.book
  rw [lit0_eq]
  rfl

end Cert.Bridge

end
-- ==== Proof.lean ====
/-
  The low-rank adapter layer  out = ((x · Aᵀ) · Bᵀ) · 4 , with A (8×4096) and B (4096×8) read out of 4-bit codes
  and per-group scales, computed by a tiled kernel and by a plain reference: the two results are equal as extended
  reals, entry by entry.

  The kernel reads A and B on the host exactly as the reference does, hands the call Aᵀ and Bᵀ · 4, and the call
  computes (rows · Aᵀ) · (Bᵀ · 4) block of 512 rows by block, each block in four trips of 128 rows.  Entry
  (b, s, o) of its result is  ∑_r (∑_i x[b, s, i] · A[r, i]) · (B[o, r] · 4) ; the reference's is
  (∑_r (∑_i x[b, s, i] · A[r, i]) · B[o, r]) · 4 .  These agree on all extended reals because multiplication is
  associative and a finite non-negative factor distributes over a sum; no finiteness of the inputs is used.

  The three frames are the programs' runs with the results dropped; the kernel's idealization rewrote nothing.
-/
import proofs.«103536_j20564303413746_2_alg».proof.Defs
import proofs.«103536_j20564303413746_2_alg».proof.Proof.Gen.Kernel.Frame
import proofs.«103536_j20564303413746_2_alg».proof.Proof.Gen.KernelIdeal.Frame
import proofs.«103536_j20564303413746_2_alg».proof.Proof.Gen.Pre_finite_inputs
import proofs.«103536_j20564303413746_2_alg».proof.Proof.KValue
import proofs.«103536_j20564303413746_2_alg».proof.Proof.RefRun
import proofs.«103536_j20564303413746_2_alg».proof.Proof.RefValue
import proofs.«103536_j20564303413746_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

/-- Both runs end with the result array at the layer's function of the (agreeing) arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.layer_eq, (hagree c).1, (hagree c).2.1, (hagree c).2.2.1, (hagree c).2.2.2.1,
    (hagree c).2.2.2.2, Cert.Bridge.matA_eq, Cert.Bridge.matB_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
